-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.sign_bit.Statement Cert.KernelIdeal.S4096x256 .f32
  ∧ IdealRules.sign_bit.Statement Cert.KernelIdeal.S4096x128 .f32
  ∧ IdealRules.sign_bit.Statement Cert.KernelIdeal.S4096x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S1x64 .f32) (main_arg6 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S262144x256 .f32) (main_arg1 : FVec F S128x256 .f32) (main_arg2 : FVec F S128 .f32) (main_arg3 : FVec F S64x128 .f32) (main_arg4 : FVec F S64 .f32) (main_arg5 : FVec F S1x64 .f32) (main_arg6 : FVec F S1 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_v13 main_v16
-- ==== Kernel.lean ====
abbrev S262144x256 : Shape := ⟨2, ![262144, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S256x128 : Shape := ⟨2, ![256, 128]⟩
abbrev S128x64 : Shape := ⟨2, ![128, 64]⟩
abbrev S1x128 : Shape := ⟨2, ![1, 128]⟩
abbrev S1x1 : Shape := ⟨2, ![1, 1]⟩
abbrev S1x262144 : Shape := ⟨2, ![1, 262144]⟩
abbrev S4096x256 : Shape := ⟨2, ![4096, 256]⟩
abbrev S1x4096 : Shape := ⟨2, ![1, 4096]⟩
abbrev S4096x128 : Shape := ⟨2, ![4096, 128]⟩
abbrev S4096x64 : Shape := ⟨2, ![4096, 64]⟩
abbrev S262144x1 : Shape := ⟨2, ![262144, 1]⟩

abbrev nBuf : Space → Nat
  | .hbm => 20
  | .vmem => 10
  | .smem => 0
  | _ => 0

abbrev bufTy : (tb : Table) → Fin (tcTables nBuf tb) → BufTy
  | .hbm, ⟨0, _⟩ => ⟨S262144x256, .f32⟩
  | .hbm, ⟨1, _⟩ => ⟨S128x256, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S128x256, .f32⟩
  | .hbm, ⟨8, _⟩ => ⟨S256x128, .f32⟩
  | .hbm, ⟨9, _⟩ => ⟨S256x128, .bf16⟩
  | .hbm, ⟨10, _⟩ => ⟨S64x128, .f32⟩
  | .hbm, ⟨11, _⟩ => ⟨S128x64, .f32⟩
  | .hbm, ⟨12, _⟩ => ⟨S128x64, .bf16⟩
  | .hbm, ⟨13, _⟩ => ⟨S1x64, .f32⟩
  | .hbm, ⟨14, _⟩ => ⟨S1x64, .bf16⟩
  | .hbm, ⟨15, _⟩ => ⟨S1x128, .f32⟩
  | .hbm, ⟨16, _⟩ => ⟨S1x64, .f32⟩
  | .hbm, ⟨17, _⟩ => ⟨S1x1, .f32⟩
  | .hbm, ⟨18, _⟩ => ⟨S1x262144, .f32⟩
  | .hbm, ⟨19, _⟩ => ⟨S262144x1, .f32⟩
  | .local _ .vmem, ⟨0, _⟩ => ⟨S4096x256, .f32⟩
  | .local _ .vmem, ⟨1, _⟩ => ⟨S4096x256, .f32⟩
  | .local _ .vmem, ⟨2, _⟩ => ⟨S256x128, .bf16⟩
  | .local _ .vmem, ⟨3, _⟩ => ⟨S1x128, .f32⟩
  | .local _ .vmem, ⟨4, _⟩ => ⟨S128x64, .bf16⟩
  | .local _ .vmem, ⟨5, _⟩ => ⟨S1x64, .f32⟩
  | .local _ .vmem, ⟨6, _⟩ => ⟨S1x64, .bf16⟩
  | .local _ .vmem, ⟨7, _⟩ => ⟨S1x1, .f32⟩
  | .local _ .vmem, ⟨8, _⟩ => ⟨S1x4096, .f32⟩
  | .local _ .vmem, ⟨9, _⟩ => ⟨S1x4096, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x256_S256x128_1_0 : S128x256.Transposes [1, 0] S256x128
  bitsLt_bf16_f32 : FTy.bits .bf16 < FTy.bits .f32
  transposes_S64x128_S128x64_1_0 : S64x128.Transposes [1, 0] S128x64
  shapeCasts_S128_S1x128 : S128.ShapeCasts S1x128
  shapeCasts_S64_S1x64 : S64.ShapeCasts S1x64
  shapeCasts_S1_S1x1 : S1.ShapeCasts S1x1
  inb_S4096x256_S4096x256_0_0 : ∀ a, (![0, 0] : Fin 2 → Nat) a + S4096x256.size a ≤ S4096x256.size a
  h_S4096x256 : 0 < S4096x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x4096 : S1x1.Broadcasts S1x4096
  inb_S1x4096_S1x4096_0_0 : ∀ a, (![0, 0] : Fin 2 → Nat) a + S1x4096.size a ≤ S1x4096.size a
  h_S1x4096 : 0 < S1x4096.numel
  transposes_S1x262144_S262144x1_1_0 : S1x262144.Transposes [1, 0] S262144x1
  dot_S4096x256_S256x128_S4096x128_1_0_0_1_n_n_wf : DotDims.WF S4096x256 S256x128 S4096x128 [1] [0] [0] [1] [] []
  dot_S4096x128_S128x64_S4096x64_1_0_0_1_n_n_wf : DotDims.WF S4096x128 S128x64 S4096x64 [1] [0] [0] [1] [] []
  dot_S1x64_S4096x64_S1x4096_1_1_0_0_n_n_wf : DotDims.WF S1x64 S4096x64 S1x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .bf16 = 32 ∨ (Rect.block (s := S1x64) S1x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x262144.size a
  hwx0_7 : ∀ i : grid0.Coords, EltTy.bits .f32 = 32 ∨ (Rect.block (s := S1x262144) S1x4096.size (cc0_transform_7 i) (hinb0_7 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S1x64_S4096x64_S1x4096_1_1_0_0_n_n : DotDims S1x64 S4096x64 S1x4096 where
  lhsContracting := [1]
  rhsContracting := [1]
  lhsNonContracting := [0]
  rhsNonContracting := [0]
  lhsBatch := []
  rhsBatch := []
  wf := dot_S1x64_S4096x64_S1x4096_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x256 : Shape := ⟨2, ![262144, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S256x128 : Shape := ⟨2, ![256, 128]⟩
abbrev S262144x128 : Shape := ⟨2, ![262144, 128]⟩
abbrev S1x128 : Shape := ⟨2, ![1, 128]⟩
abbrev S128x64 : Shape := ⟨2, ![128, 64]⟩
abbrev S262144x64 : Shape := ⟨2, ![262144, 64]⟩
abbrev S64x1 : Shape := ⟨2, ![64, 1]⟩
abbrev S262144x1 : Shape := ⟨2, ![262144, 1]⟩
abbrev S1x1 : Shape := ⟨2, ![1, 1]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S128x256, .f32⟩
  | .hbm, ⟨2, _⟩ => ⟨S128, .f32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S262144x256, .f32⟩
  | .hbm, ⟨8, _⟩ => ⟨S128x256, .f32⟩
  | .hbm, ⟨9, _⟩ => ⟨S256x128, .f32⟩
  | .hbm, ⟨10, _⟩ => ⟨S262144x128, .f32⟩
  | .hbm, ⟨11, _⟩ => ⟨S1x128, .f32⟩
  | .hbm, ⟨12, _⟩ => ⟨S262144x128, .f32⟩
  | .hbm, ⟨13, _⟩ => ⟨S262144x128, .f32⟩
  | .hbm, ⟨14, _⟩ => ⟨S262144x128, .f32⟩
  | .hbm, ⟨15, _⟩ => ⟨S64x128, .f32⟩
  | .hbm, ⟨16, _⟩ => ⟨S128x64, .f32⟩
  | .hbm, ⟨17, _⟩ => ⟨S262144x64, .f32⟩
  | .hbm, ⟨18, _⟩ => ⟨S1x64, .f32⟩
  | .hbm, ⟨19, _⟩ => ⟨S262144x64, .f32⟩
  | .hbm, ⟨20, _⟩ => ⟨S262144x64, .f32⟩
  | .hbm, ⟨21, _⟩ => ⟨S262144x64, .f32⟩
  | .hbm, ⟨22, _⟩ => ⟨S1x64, .f32⟩
  | .hbm, ⟨23, _⟩ => ⟨S64x1, .f32⟩
  | .hbm, ⟨24, _⟩ => ⟨S262144x1, .f32⟩
  | .hbm, ⟨25, _⟩ => ⟨S1x1, .f32⟩
  | .hbm, ⟨26, _⟩ => ⟨S262144x1, .f32⟩
  | .hbm, ⟨27, _⟩ => ⟨S262144x1, .f32⟩
  | .hbm, ⟨28, _⟩ => ⟨S262144x1, .f32⟩
  | .hbm, ⟨29, _⟩ => ⟨S262144x1, .f32⟩
  | .hbm, ⟨30, _⟩ => ⟨S_, .f32⟩
  | .hbm, ⟨31, _⟩ => ⟨S262144x1, .f32⟩
  | .hbm, ⟨32, _⟩ => ⟨S262144x1, .f32⟩
  | .hbm, ⟨33, _⟩ => ⟨S_, .f32⟩
  | .hbm, ⟨34, _⟩ => ⟨S262144x1, .f32⟩
  | .hbm, ⟨35, _⟩ => ⟨S262144x1, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  transposes_S64x128_S128x64_1_0 : S64x128.Transposes [1, 0] S128x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  transposes_S1x64_S64x1_1_0 : S1x64.Transposes [1, 0] S64x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S262144x1 : S_.BroadcastsInDim S262144x1 (![] : Fin 0 → Fin S262144x1.rank)
  dot_S262144x256_S256x128_S262144x128_1_0_0_1_n_n_wf : DotDims.WF S262144x256 S256x128 S262144x128 [1] [0] [0] [1] [] []
  dot_S262144x128_S128x64_S262144x64_1_0_0_1_n_n_wf : DotDims.WF S262144x128 S128x64 S262144x64 [1] [0] [0] [1] [] []
  dot_S262144x64_S64x1_S262144x1_1_0_0_1_n_n_wf : DotDims.WF S262144x64 S64x1 S262144x1 [1] [0] [0] [1] [] []

variable [Facts₀]

def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x1_S262144x1_1_0_0_1_n_n : DotDims S262144x64 S64x1 S262144x1 where
  lhsContracting := [1]
  rhsContracting := [0]
  lhsNonContracting := [0]
  rhsNonContracting := [1]
  lhsBatch := []
  rhsBatch := []
  wf := dot_S262144x64_S64x1_S262144x1_1_0_0_1_n_n_wf

class Facts : Prop extends Facts₀ where

variable [Facts]
-- ==== Proof.Spec.lean ====
/-
  The three-layer sign network as ONE function of its argument arrays, over the extended reals.

  For a batch row `r`, with `sgn` the three-way sign (`-1`, `0`, `1`; the infinities `∓1`):
    h₁(r, j) = sgn (∑ₖ sgn x(r, k) · sgn w₁(j, k) + b₁(j))        k < 256, j < 128
    h₂(r, j) = sgn (∑ₖ h₁(r, k) · sgn w₂(j, k) + b₂(j))            k < 128, j < 64
    z(r)     = ∑ₖ h₂(r, k) · sgn w₃(0, k) + b₃(0)                  k < 64
    out(r)   = 1 / (1 + e^(-z(r)))
  The same network over ONE tile of 4096 rows, whose weight operands arrive already signed and transposed
  and whose last product is taken with the weight on the left, is stated beside it (`tileOut`), and
  `tileOut_eq_prob` joins the two: entry by entry the tile's operands are the arrays' entries, and the
  last layer's factors commute. Nothing here needs the inputs to be finite: only sums and products of
  extended reals in one fixed order, and commutativity of the product.
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- A two-axis array of extended reals, `a` rows by `b` columns. -/
abbrev Arr2 (a b : Nat) : Type := (⟨2, ![a, b]⟩ : Shape).Idx → EReal
/-- A one-axis array of extended reals. -/
abbrev Arr1 (a : Nat) : Type := (⟨1, ![a]⟩ : Shape).Idx → EReal

/-! ## The network over the whole batch -/

/-- First hidden layer at row `r`, unit `j`: the sign of the signed input row against the signed weight row, plus the bias. -/
def hidden1 (x : Arr2 262144 256) (w1 : Arr2 128 256) (b1 : Arr1 128) (r : Fin 262144) (j : Fin 128) : EReal :=
  Ideal.sign ((∑ k : Fin 256, Ideal.sign (x (ix2 r k)) * Ideal.sign (w1 (ix2 j k))) + b1 (ix1 j))

/-- Second hidden layer at row `r`, unit `j`. -/
def hidden2 (x : Arr2 262144 256) (w1 : Arr2 128 256) (b1 : Arr1 128) (w2 : Arr2 64 128) (b2 : Arr1 64)
    (r : Fin 262144) (j : Fin 64) : EReal :=
  Ideal.sign ((∑ k : Fin 128, hidden1 x w1 b1 r k * Ideal.sign (w2 (ix2 j k))) + b2 (ix1 j))

/-- The output unit's pre-activation at row `r`. -/
def logit (x : Arr2 262144 256) (w1 : Arr2 128 256) (b1 : Arr1 128) (w2 : Arr2 64 128) (b2 : Arr1 64)
    (w3 : Arr2 1 64) (b3 : Arr1 1) (r : Fin 262144) : EReal :=
  (∑ k : Fin 64, hidden2 x w1 b1 w2 b2 r k * Ideal.sign (w3 (ix2 (0 : Fin 1) k))) + b3 (ix1 (0 : Fin 1))

/-- The network's output at row `r`: the logistic function of the pre-activation. -/
def prob (x : Arr2 262144 256) (w1 : Arr2 128 256) (b1 : Arr1 128) (w2 : Arr2 64 128) (b2 : Arr1 64)
    (w3 : Arr2 1 64) (b3 : Arr1 1) (r : Fin 262144) : EReal :=
  Ideal.logistic (logit x w1 b1 w2 b2 w3 b3 r)

/-! ## The network over one tile of 4096 rows, its weights already signed and transposed -/

/-- First hidden layer over a tile: `X1` is the signed weight, transposed ([256, 128]); `X2` the bias as a row. -/
def tileHidden1 (X0 : Arr2 4096 256) (X1 : Arr2 256 128) (X2 : Arr2 1 128) (p : Fin 4096) (j : Fin 128) : EReal :=
  Ideal.sign ((∑ k : Fin 256, Ideal.sign (X0 (ix2 p k)) * X1 (ix2 k j)) + X2 (ix2 (0 : Fin 1) j))

/-- Second hidden layer over a tile. -/
def tileHidden2 (X0 : Arr2 4096 256) (X1 : Arr2 256 128) (X2 : Arr2 1 128) (X3 : Arr2 128 64) (X4 : Arr2 1 64)
    (p : Fin 4096) (j : Fin 64) : EReal :=
  Ideal.sign ((∑ k : Fin 128, tileHidden1 X0 X1 X2 p k * X3 (ix2 k j)) + X4 (ix2 (0 : Fin 1) j))

/-- The tile's output at its row `p`: the last layer multiplies with the weight row on the LEFT. -/
def tileOut (X0 : Arr2 4096 256) (X1 : Arr2 256 128) (X2 : Arr2 1 128) (X3 : Arr2 128 64) (X4 : Arr2 1 64)
    (X5 : Arr2 1 64) (X6 : Arr2 1 1) (p : Fin 4096) : EReal :=
  Ideal.logistic ((∑ k : Fin 64, X5 (ix2 (0 : Fin 1) k) * tileHidden2 X0 X1 X2 X3 X4 p k) + X6 (ix2 (0 : Fin 1) (0 : Fin 1)))

/-- A tile whose operands are, entry by entry, row `r` of the input, the signed weights read transposed and the biases
    computes the network's output at row `r`: each sum is taken over the same terms in the same order, and the last
    layer's two factors commute. -/
theorem tileOut_eq_prob (x : Arr2 262144 256) (w1 : Arr2 128 256) (b1 : Arr1 128) (w2 : Arr2 64 128) (b2 : Arr1 64)
    (w3 : Arr2 1 64) (b3 : Arr1 1)
    (X0 : Arr2 4096 256) (X1 : Arr2 256 128) (X2 : Arr2 1 128) (X3 : Arr2 128 64) (X4 : Arr2 1 64)
    (X5 : Arr2 1 64) (X6 : Arr2 1 1) (r : Fin 262144) (p : Fin 4096)
    (h0 : ∀ k : Fin 256, X0 (ix2 p k) = x (ix2 r k))
    (h1 : ∀ (k : Fin 256) (j : Fin 128), X1 (ix2 k j) = Ideal.sign (w1 (ix2 j k)))
    (h2 : ∀ j : Fin 128, X2 (ix2 (0 : Fin 1) j) = b1 (ix1 j))
    (h3 : ∀ (k : Fin 128) (j : Fin 64), X3 (ix2 k j) = Ideal.sign (w2 (ix2 j k)))
    (h4 : ∀ j : Fin 64, X4 (ix2 (0 : Fin 1) j) = b2 (ix1 j))
    (h5 : ∀ k : Fin 64, X5 (ix2 (0 : Fin 1) k) = Ideal.sign (w3 (ix2 (0 : Fin 1) k)))
    (h6 : X6 (ix2 (0 : Fin 1) (0 : Fin 1)) = b3 (ix1 (0 : Fin 1))) :
    tileOut X0 X1 X2 X3 X4 X5 X6 p = prob x w1 b1 w2 b2 w3 b3 r := by
  have e1 : ∀ j : Fin 128, tileHidden1 X0 X1 X2 p j = hidden1 x w1 b1 r j := fun j => by
    unfold tileHidden1 hidden1
    rw [h2 j]
    exact congrArg (fun s => Ideal.sign (s + b1 (ix1 j))) (Finset.sum_congr rfl fun k _ => by rw [h0 k, h1 k j])
  have e2 : ∀ j : Fin 64, tileHidden2 X0 X1 X2 X3 X4 p j = hidden2 x w1 b1 w2 b2 r j := fun j => by
    unfold tileHidden2 hidden2
    rw [h4 j]
    exact congrArg (fun s => Ideal.sign (s + b2 (ix1 j))) (Finset.sum_congr rfl fun k _ => by rw [e1 k, h3 k j])
  unfold tileOut prob logit
  rw [h6]
  exact congrArg (fun s => Ideal.logistic (s + b3 (ix1 (0 : Fin 1))))
    (Finset.sum_congr rfl fun k _ => by rw [h5 k, e2 k, mul_comm])

end Cert.Mlp

end
-- ==== Proof.RefNetwork.lean ====
/-
  The reference program computes the network of Spec.lean: read one operation at a time, its result at batch row
  `r` (the array index `(r, 0)`) is `1 / (1 + e^(-z(r)))` with `z` the third layer's sum, each `dot_general` the sum
  over its one contracted axis, each transpose and broadcast a change of index, and the host's spelling of the
  logistic function — negate, exponential, add one, divide one by it — the logistic function itself.
-/
import proofs.«112013_j30580167147834_2_alg».proof.Proof.Gen.ReferenceIdeal.Read
import proofs.«112013_j30580167147834_2_alg».proof.Proof.Spec
import Idealize.ShloMosaic.PureOps.IdealRules

noncomputable section

open scoped BigOperators

namespace Cert.ReferenceIdeal.RefNetwork

open Cert.ReferenceIdeal Cert.ReferenceIdeal.Read Idealize.ShloMosaic Idealize.ShloMosaic.ValueIdx Cert.Mlp

/-- The word `0x3F800000` is the real number one. -/
theorem one_word : Ideal.ofBits .f32 0x3F800000#32 = (1 : EReal) := IdealRules.sign_bit.ideal_onePat .f32

/-! ## Where each operand is read: the composed index maps, coordinate by coordinate -/

/-- The input entry the first layer reads for output row `i 0` and contraction index `k''`. -/
theorem at_x (i : S262144x1.Idx) (k : Fin 64) (k' : Fin 128) (k'' : Fin 256) :
    lidx_main_v3 (lidx_main_v10 (lidx_main_v17 i k) k') k'' = ix2 (n0 := 262144) (n1 := 256) (i 0) k'' :=
  funext fun a => Fin.ext (by match a with | ⟨0, _⟩ => rfl | ⟨1, _⟩ => rfl)

/-- The first weight's entry, read through the transpose: unit `k'`, input `k''`. -/
theorem at_w1 (i : S262144x1.Idx) (k : Fin 64) (k' : Fin 128) (k'' : Fin 256) :
    idx_main_v2 (ridx_main_v3 (lidx_main_v10 (lidx_main_v17 i k) k') k'') = ix2 (n0 := 128) (n1 := 256) k' k'' :=
  funext fun a => Fin.ext (by match a with | ⟨0, _⟩ => rfl | ⟨1, _⟩ => rfl)

/-- The first bias's entry, read through its two broadcasts. -/
theorem at_b1 (i : S262144x1.Idx) (k : Fin 64) (k' : Fin 128) :
    idx_main_v4 (idx_main_v5 (lidx_main_v10 (lidx_main_v17 i k) k')) = ix1 (n := 128) k' :=
  funext fun a => Fin.ext (by match a with | ⟨0, _⟩ => rfl)

/-- The second weight's entry, read through the transpose: unit `k`, input `k'`. -/
theorem at_w2 (i : S262144x1.Idx) (k : Fin 64) (k' : Fin 128) :
    idx_main_v9 (ridx_main_v10 (lidx_main_v17 i k) k') = ix2 (n0 := 64) (n1 := 128) k k' :=
  funext fun a => Fin.ext (by match a with | ⟨0, _⟩ => rfl | ⟨1, _⟩ => rfl)

/-- The second bias's entry. -/
theorem at_b2 (i : S262144x1.Idx) (k : Fin 64) :
    idx_main_v11 (idx_main_v12 (lidx_main_v17 i k)) = ix1 (n := 64) k :=
  funext fun a => Fin.ext (by match a with | ⟨0, _⟩ => rfl)

/-- The third weight's entry: its one row, input `k` (the result's second axis has extent one). -/
theorem at_w3 (i : S262144x1.Idx) (k : Fin 64) :
    idx_main_v16 (ridx_main_v17 i k) = ix2 (n0 := 1) (n1 := 64) (0 : Fin 1) k :=
  funext fun a => Fin.ext (by
    match a with
    | ⟨0, _⟩ => show (i 1).val = 0; have h : (i 1).val < 1 := (i 1).isLt; omega
    | ⟨1, _⟩ => rfl)

/-- The third bias's one entry. -/
theorem at_b3 (i : S262144x1.Idx) : idx_main_v18 (idx_main_v19 i) = ix1 (n := 1) (0 : Fin 1) :=
  funext fun a => Fin.ext (by match a with | ⟨0, _⟩ => rfl)

/-! ## The reference's result, entry by entry -/

/-- The reference's result at `(r, 0)` is the network's output at row `r`. -/
theorem result_apply (x0 : (⟨S262144x256, .f32⟩ : BufTy).Contents (Elt Ideal)) (x1 : (⟨S128x256, .f32⟩ : BufTy).Contents (Elt Ideal))
    (x2 : (⟨S128, .f32⟩ : BufTy).Contents (Elt Ideal)) (x3 : (⟨S64x128, .f32⟩ : BufTy).Contents (Elt Ideal))
    (x4 : (⟨S64, .f32⟩ : BufTy).Contents (Elt Ideal)) (x5 : (⟨S1x64, .f32⟩ : BufTy).Contents (Elt Ideal))
    (x6 : (⟨S1, .f32⟩ : BufTy).Contents (Elt Ideal)) (i : S262144x1.Idx) :
    val_main_v26 (F := Ideal) x0 x1 x2 x3 x4 x5 x6 i = prob x0 x1 x2 x3 x4 x5 x6 (i 0) := by
  rw [val_main_v26_apply, val_main_v25_apply, val_main_cst_0_apply, val_main_v24_apply, val_main_v23_apply,
    val_main_cst_apply, val_main_v22_apply, val_main_v21_apply, val_main_v20_apply, val_main_v19_apply,
    val_main_v18_apply, val_main_v17_apply]
  simp only [val_main_v16_apply, val_main_v15_apply, val_main_v14_apply, val_main_v13_apply, val_main_v12_apply,
    val_main_v11_apply, val_main_v10_apply, val_main_v9_apply, val_main_v8_apply, val_main_v7_apply,
    val_main_v6_apply, val_main_v5_apply, val_main_v4_apply, val_main_v3_apply, val_main_v2_apply,
    val_main_v1_apply, val_main_v0_apply, at_x, at_w1, at_b1, at_w2, at_b2, at_w3, at_b3,
    Ideal.hostUnary_sign_def, Ideal.ofBits_def, one_word]
  rfl

end Cert.ReferenceIdeal.RefNetwork

end
-- ==== Proof.Body.lean ====
/-
  The kernel body's arithmetic at one entry of its output tile.

  The body reads a tile of 4096 input rows and the whole (signed, transposed) weights and biases, and stores one
  [1, 4096] row. Entry `(0, p)` of what it stores is the network of Spec.lean over the tile (`Cert.Mlp.tileOut`) at the
  tile's row `p`: each matrix product into a zero accumulator is the sum over its one contracted axis of the
  operands' products; the printed sign term (one with the operand's sign where the operand is not zero, else the
  operand) is the three-way sign at each entry; a change of float format is the identity; a bias row broadcast
  along the rows reads the bias at the column; the last product contracts the weight row `[1, 64]` with the
  activations `[4096, 64]` along their second axes, so its entry `(0, p)` sums weight times activation over row `p`.
-/
import proofs.«112013_j30580167147834_2_alg».proof.Proof.Gen.KernelIdeal.Skeleton
import proofs.«112013_j30580167147834_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Mlp

/-! ## The printed sign of a vector is the three-way sign, entry by entry -/

/-- One carrying the operand's sign where the operand's magnitude is above zero, else the operand itself: `-1` below
    zero, `1` above, and at zero the operand, which is zero. -/
theorem sign_vec {s : Shape} (x : FVec Ideal s .f32) :
    select (cmpf .ogt (absf x) (broadcast s (Scalar.ofBits .f32 0x00000000#32)))
        (select (cmpf .olt x (constant s .f32 0x00000000#32)) (constant s .f32 0xBF800000#32)
          (constant s .f32 0x3F800000#32)) x
      = fun i => Ideal.sign (x i) :=
  funext fun i => Ideal.jnp_sign_eq_sign_f32 (x i)

/-! ## The three matrix products as sums over the contracted axis -/

/-! ### Layer 1: [4096, 256] × [256, 128] -/

theorem lhs1_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhs1_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhs1_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhs1_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- Entry `(p, j)` of the first product: row `p` of the left operand against column `j` of the right. -/
theorem dot1_apply (L : FVec Ideal S4096x256 .bf16) (R : FVec Ideal S256x128 .bf16) (p : Fin 4096) (j : Fin 128) :
    matmul dot_S4096x256_S256x128_S4096x128_1_0_0_1_n_n none L R (constant S4096x128 .f32 0x00000000#32) (ix2 (n0 := 4096) (n1 := 128) p j)
      = ∑ k : Fin 256, L (ix2 (n0 := 4096) (n1 := 256) p k) * R (ix2 (n0 := 256) (n1 := 128) k j) := by
  simp only [matmul]
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 (n0 := 4096) (n1 := 128) p j) ((contrEquiv1 dot_S4096x256_S256x128_S4096x128_1_0_0_1_n_n 256 rfl rfl).symm k) = ix2 (n0 := 4096) (n1 := 256) p k := funext fun a => Fin.ext (by
    match a with
    | ⟨0, _⟩ => exact lhs1_0 _ _
    | ⟨1, _⟩ => exact (lhs1_1 _ _).trans hk)
  have er : dot_S4096x256_S256x128_S4096x128_1_0_0_1_n_n.rhsIdx (ix2 (n0 := 4096) (n1 := 128) p j) ((contrEquiv1 dot_S4096x256_S256x128_S4096x128_1_0_0_1_n_n 256 rfl rfl).symm k) = ix2 (n0 := 256) (n1 := 128) k j := funext fun a => Fin.ext (by
    match a with
    | ⟨0, _⟩ => exact (rhs1_0 _ _).trans hk
    | ⟨1, _⟩ => exact rhs1_1 _ _)
  rw [el, er]

/-! ### Layer 2: [4096, 128] × [128, 64] -/

theorem lhs2_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhs2_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhs2_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhs2_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- Entry `(p, j)` of the second product. -/
theorem dot2_apply (L : FVec Ideal S4096x128 .bf16) (R : FVec Ideal S128x64 .bf16) (p : Fin 4096) (j : Fin 64) :
    matmul dot_S4096x128_S128x64_S4096x64_1_0_0_1_n_n none L R (constant S4096x64 .f32 0x00000000#32) (ix2 (n0 := 4096) (n1 := 64) p j)
      = ∑ k : Fin 128, L (ix2 (n0 := 4096) (n1 := 128) p k) * R (ix2 (n0 := 128) (n1 := 64) k j) := by
  simp only [matmul]
  rw [Ideal.matmul_constant_zero_apply, ← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 (n0 := 4096) (n1 := 64) p j) ((contrEquiv1 dot_S4096x128_S128x64_S4096x64_1_0_0_1_n_n 128 rfl rfl).symm k) = ix2 (n0 := 4096) (n1 := 128) p k := funext fun a => Fin.ext (by
    match a with
    | ⟨0, _⟩ => exact lhs2_0 _ _
    | ⟨1, _⟩ => exact (lhs2_1 _ _).trans hk)
  have er : dot_S4096x128_S128x64_S4096x64_1_0_0_1_n_n.rhsIdx (ix2 (n0 := 4096) (n1 := 64) p j) ((contrEquiv1 dot_S4096x128_S128x64_S4096x64_1_0_0_1_n_n 128 rfl rfl).symm k) = ix2 (n0 := 128) (n1 := 64) k j := funext fun a => Fin.ext (by
    match a with
    | ⟨0, _⟩ => exact (rhs2_0 _ _).trans hk
    | ⟨1, _⟩ => exact rhs2_1 _ _)
  rw [el, er]

/-! ### Layer 3: [1, 64] against [4096, 64], both contracted along their second axis -/

theorem lhs3_0 (i : S1x4096.Idx) (q : dot_S1x64_S4096x64_S1x4096_1_1_0_0_n_n.contr.Idx) :
    (dot_S1x64_S4096x64_S1x4096_1_1_0_0_n_n.lhsIdx i q 0).val = (i 0).val := by
  unfold DotDims.lhsIdx
  rw [dif_neg (show ¬(0 : Fin S1x64.rank) ∈ dot_S1x64_S4096x64_S1x4096_1_1_0_0_n_n.lhsBatch by decide), dif_pos (show (0 : Fin S1x64.rank) ∈ dot_S1x64_S4096x64_S1x4096_1_1_0_0_n_n.lhsNonContracting by decide)]
  rfl
theorem lhs3_1 (i : S1x4096.Idx) (q : dot_S1x64_S4096x64_S1x4096_1_1_0_0_n_n.contr.Idx) :
    (dot_S1x64_S4096x64_S1x4096_1_1_0_0_n_n.lhsIdx i q 1).val = (q ⟨0, by decide⟩).val :=
  dot_S1x64_S4096x64_S1x4096_1_1_0_0_n_n.lhsIdx_val_of_single rfl i q
theorem rhs3_0 (i : S1x4096.Idx) (q : dot_S1x64_S4096x64_S1x4096_1_1_0_0_n_n.contr.Idx) :
    (dot_S1x64_S4096x64_S1x4096_1_1_0_0_n_n.rhsIdx i q 0).val = (i 1).val := by
  unfold DotDims.rhsIdx
  rw [dif_neg (show ¬(0 : Fin S4096x64.rank) ∈ dot_S1x64_S4096x64_S1x4096_1_1_0_0_n_n.rhsBatch by decide), dif_pos (show (0 : Fin S4096x64.rank) ∈ dot_S1x64_S4096x64_S1x4096_1_1_0_0_n_n.rhsNonContracting by decide)]
  rfl
theorem rhs3_1 (i : S1x4096.Idx) (q : dot_S1x64_S4096x64_S1x4096_1_1_0_0_n_n.contr.Idx) :
    (dot_S1x64_S4096x64_S1x4096_1_1_0_0_n_n.rhsIdx i q 1).val = (q ⟨0, by decide⟩).val :=
  dot_S1x64_S4096x64_S1x4096_1_1_0_0_n_n.rhsIdx_val_of_single rfl i q

/-- Entry `(0, j)` of the last product: the weight row against ROW `j` of the right operand. -/
theorem dot3_apply (L : FVec Ideal S1x64 .bf16) (R : FVec Ideal S4096x64 .bf16) (p : Fin 1) (j : Fin 4096) :
    matmul dot_S1x64_S4096x64_S1x4096_1_1_0_0_n_n none L R (constant S1x4096 .f32 0x00000000#32) (ix2 (n0 := 1) (n1 := 4096) p j)
      = ∑ k : Fin 64, L (ix2 (n0 := 1) (n1 := 64) p k) * R (ix2 (n0 := 4096) (n1 := 64) j k) := by
  simp only [matmul]
  rw [Ideal.matmul_constant_zero_apply, ← Equiv.sum_comp (contrEquiv1 dot_S1x64_S4096x64_S1x4096_1_1_0_0_n_n 64 rfl rfl).symm]
  refine Finset.sum_congr rfl fun k _ => ?_
  have hk := contrEquiv1_symm_val dot_S1x64_S4096x64_S1x4096_1_1_0_0_n_n 64 rfl rfl k
  have el : dot_S1x64_S4096x64_S1x4096_1_1_0_0_n_n.lhsIdx (ix2 (n0 := 1) (n1 := 4096) p j) ((contrEquiv1 dot_S1x64_S4096x64_S1x4096_1_1_0_0_n_n 64 rfl rfl).symm k) = ix2 (n0 := 1) (n1 := 64) p k := funext fun a => Fin.ext (by
    match a with
    | ⟨0, _⟩ => exact lhs3_0 _ _
    | ⟨1, _⟩ => exact (lhs3_1 _ _).trans hk)
  have er : dot_S1x64_S4096x64_S1x4096_1_1_0_0_n_n.rhsIdx (ix2 (n0 := 1) (n1 := 4096) p j) ((contrEquiv1 dot_S1x64_S4096x64_S1x4096_1_1_0_0_n_n 64 rfl rfl).symm k) = ix2 (n0 := 4096) (n1 := 64) j k := funext fun a => Fin.ext (by
    match a with
    | ⟨0, _⟩ => exact rhs3_0 _ _
    | ⟨1, _⟩ => exact (rhs3_1 _ _).trans hk)
  rw [el, er]

/-! ## The bias rows, broadcast along the rows -/

/-- The first bias row `[1, 128]` broadcast to `[4096, 128]` reads the bias at the column. -/
theorem bias1_apply (X2 : Vec Ideal S1x128 .f32) (p : Fin 4096) (j : Fin 128) :
    broadcastTo S4096x128 X2 broadcasts_S1x128_S4096x128 (ix2 (n0 := 4096) (n1 := 128) p j)
      = X2 (ix2 (n0 := 1) (n1 := 128) (0 : Fin 1) j) :=
  broadcastTo_apply X2 broadcasts_S1x128_S4096x128 _ _ (fun a => match a with
    | ⟨0, _⟩ => by show 0 = if (1 : Nat) = 1 then 0 else _; rw [if_pos rfl]
    | ⟨1, _⟩ => by show j.val = if (128 : Nat) = 1 then 0 else j.val; rw [if_neg (by decide)])

/-- The second bias row `[1, 64]` broadcast to `[4096, 64]`. -/
theorem bias2_apply (X4 : Vec Ideal S1x64 .f32) (p : Fin 4096) (j : Fin 64) :
    broadcastTo S4096x64 X4 broadcasts_S1x64_S4096x64 (ix2 (n0 := 4096) (n1 := 64) p j)
      = X4 (ix2 (n0 := 1) (n1 := 64) (0 : Fin 1) j) :=
  broadcastTo_apply X4 broadcasts_S1x64_S4096x64 _ _ (fun a => match a with
    | ⟨0, _⟩ => by show 0 = if (1 : Nat) = 1 then 0 else _; rw [if_pos rfl]
    | ⟨1, _⟩ => by show j.val = if (64 : Nat) = 1 then 0 else j.val; rw [if_neg (by decide)])

/-- The last bias `[1, 1]` broadcast to `[1, 4096]` reads its one entry. -/
theorem bias3_apply (X6 : Vec Ideal S1x1 .f32) (p : Fin 4096) :
    broadcastTo S1x4096 X6 broadcasts_S1x1_S1x4096 (ix2 (n0 := 1) (n1 := 4096) (0 : Fin 1) p)
      = X6 (ix2 (n0 := 1) (n1 := 1) (0 : Fin 1) (0 : Fin 1)) :=
  broadcastTo_apply X6 broadcasts_S1x1_S1x4096 _ _ (fun a => match a with
    | ⟨0, _⟩ => by show 0 = if (1 : Nat) = 1 then 0 else _; rw [if_pos rfl]
    | ⟨1, _⟩ => by show 0 = if (1 : Nat) = 1 then 0 else _; rw [if_pos rfl])

/-! ## The two payloads at an entry -/

/-- The second hidden layer's activations, as the body computes them from its loaded tiles, at `(p, j)`. -/
theorem hidden_apply (X0 : Vec Ideal S4096x256 .f32) (X1 : Vec Ideal S256x128 .bf16) (X2 : Vec Ideal S1x128 .f32)
    (X3 : Vec Ideal S128x64 .bf16) (X4 : Vec Ideal S1x64 .f32) (p : Fin 4096) (j : Fin 64) :
    k0_pay2 X0 X1 X2 X3 X4 (ix2 (n0 := 4096) (n1 := 64) p j) = tileHidden2 X0 X1 X2 X3 X4 p j := by
  unfold k0_pay2
  simp only [sign_vec, shapeCast_self]
  rw [addf_apply, dot2_apply, bias2_apply]
  unfold tileHidden2
  refine congrArg (fun s => Ideal.sign (s + X4 (ix2 (n0 := 1) (n1 := 64) (0 : Fin 1) j))) (Finset.sum_congr rfl fun k _ => ?_)
  refine congrArg (· * X3 (ix2 (n0 := 128) (n1 := 64) k j)) ?_
  show Ideal.sign ((addf _ _ : FVec Ideal S4096x128 .f32) (ix2 (n0 := 4096) (n1 := 128) p k)) = _
  rw [addf_apply, dot1_apply, bias1_apply]
  rfl

/-- THE STORED ROW at `(0, p)`: the network over the tile at its row `p`. -/
theorem stored_apply (X0 : Vec Ideal S4096x256 .f32) (X1 : Vec Ideal S256x128 .bf16) (X2 : Vec Ideal S1x128 .f32)
    (X3 : Vec Ideal S128x64 .bf16) (X4 : Vec Ideal S1x64 .f32) (X5 : Vec Ideal S1x64 .bf16) (X6 : Vec Ideal S1x1 .f32)
    (p : Fin 4096) :
    k0_pay1 (k0_pay2 X0 X1 X2 X3 X4) X5 X6 (ix2 (n0 := 1) (n1 := 4096) (0 : Fin 1) p) = tileOut X0 X1 X2 X3 X4 X5 X6 p := by
  unfold k0_pay1
  simp only [shapeCast_self]
  show Ideal.logistic ((addf _ _ : FVec Ideal S1x4096 .f32) (ix2 (n0 := 1) (n1 := 4096) (0 : Fin 1) p)) = _
  rw [addf_apply, dot3_apply, bias3_apply]
  unfold tileOut
  refine congrArg (fun s => Ideal.logistic (s + X6 (ix2 (n0 := 1) (n1 := 1) (0 : Fin 1) (0 : Fin 1)))) (Finset.sum_congr rfl fun k _ => ?_)
  refine congrArg (X5 (ix2 (n0 := 1) (n1 := 64) (0 : Fin 1) k) * ·) ?_
  exact hidden_apply X0 X1 X2 X3 X4 p k

end Cert.KernelIdeal.Body

end
-- ==== Proof.Tiles.lean ====
/-
  What the kernel's windows hold at a grid point, in terms of the argument arrays.

  The grid has 64 points; point `t` reads rows `4096·t … 4096·t + 4095` of the input (window 0) and the WHOLE of the six
  small operands (windows 1–6, block index zero on both axes), and writes columns `4096·t …` of the `[1, 262144]` result
  (window 7). The small operands are what the host operations before the call leave: the signed weights transposed
  (`w₁`, `w₂`) or as they are (`w₃`), a change of float format being the identity, and the biases reshaped to rows.
  So the first weight's tile at `(k, j)` is `sgn w₁(j, k)`, the first bias's at `(0, j)` is `b₁(j)`, and so on.
-/
import proofs.«112013_j30580167147834_2_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Tiles

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The block index of every window at every grid point -/

/-- Decided over the 64 points: the input and the result move with the point along their long axis; the six small
    operands stay at block zero. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-! ## What the host operations before the call leave in the small operands -/

/-- The first weight operand: the signed weight, transposed. -/
theorem V_w1 (c : Dev nD) : (V m c main_v2 : FVec Ideal S256x128 .bf16)
    = truncf (F := Ideal) .bf16 (transpose S256x128 [1, 0] (Host.sign (F := Ideal) (m ((c : Thread nD τ).loc main_arg1) : FVec Ideal S128x256 .f32)) transposes_S128x256_S256x128_1_0) bitsLt_bf16_f32 := by
  show StableHlo.after hostOps0 (fun b => m (c, b)) (Proc.devRef .tc main_v2) = _
  after_results

/-- The second weight operand: the signed weight, transposed. -/
theorem V_w2 (c : Dev nD) : (V m c main_v5 : FVec Ideal S128x64 .bf16)
    = truncf (F := Ideal) .bf16 (transpose S128x64 [1, 0] (Host.sign (F := Ideal) (m ((c : Thread nD τ).loc main_arg3) : FVec Ideal S64x128 .f32)) transposes_S64x128_S128x64_1_0) bitsLt_bf16_f32 := by
  show StableHlo.after hostOps0 (fun b => m (c, b)) (Proc.devRef .tc main_v5) = _
  after_results

/-- The third weight operand: the signed weight row. -/
theorem V_w3 (c : Dev nD) : (V m c main_v7 : FVec Ideal S1x64 .bf16)
    = truncf (F := Ideal) .bf16 (Host.sign (F := Ideal) (m ((c : Thread nD τ).loc main_arg5) : FVec Ideal S1x64 .f32)) bitsLt_bf16_f32 := by
  show StableHlo.after hostOps0 (fun b => m (c, b)) (Proc.devRef .tc main_v7) = _
  after_results

/-- The first bias as a row. -/
theorem V_b1 (c : Dev nD) : (V m c main_v8 : FVec Ideal S1x128 .f32)
    = shapeCast S1x128 (m ((c : Thread nD τ).loc main_arg2) : FVec Ideal S128 .f32) shapeCasts_S128_S1x128 := by
  show StableHlo.after hostOps0 (fun b => m (c, b)) (Proc.devRef .tc main_v8) = _
  after_results
  rfl

/-- The second bias as a row. -/
theorem V_b2 (c : Dev nD) : (V m c main_v9 : FVec Ideal S1x64 .f32)
    = shapeCast S1x64 (m ((c : Thread nD τ).loc main_arg4) : FVec Ideal S64 .f32) shapeCasts_S64_S1x64 := by
  show StableHlo.after hostOps0 (fun b => m (c, b)) (Proc.devRef .tc main_v9) = _
  after_results
  rfl

/-- The third bias as a one-by-one array. -/
theorem V_b3 (c : Dev nD) : (V m c main_v10 : FVec Ideal S1x1 .f32)
    = shapeCast S1x1 (m ((c : Thread nD τ).loc main_arg6) : FVec Ideal S1 .f32) shapeCasts_S1_S1x1 := by
  show StableHlo.after hostOps0 (fun b => m (c, b)) (Proc.devRef .tc main_v10) = _
  after_results
  rfl

/-! ## The tiles of the six small operands are the whole operands -/

/-- Window 1's tile is the whole operand: its block index is zero on both axes. -/
theorem tile1_whole (c : Dev nD) (t : Fin cfg0.N) (y : S256x128.Idx) :
    (iblk m c 1 t : Vec Ideal S256x128 .bf16) y = (V m c main_v2 : FVec Ideal S256x128 .bf16) y := by
  have e0 : win0_1.index t (0 : Fin 2) = 0 := (block_index t).2.2.1
  have e1 : win0_1.index t (1 : Fin 2) = 0 := (block_index t).2.2.2.1
  unfold iblk
  rw [View.read_apply]
  show V m c main_v2 _ = V m c main_v2 y
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega

/-- Window 2's tile is the whole operand: its block index is zero on both axes. -/
theorem tile2_whole (c : Dev nD) (t : Fin cfg0.N) (y : S1x128.Idx) :
    (iblk m c 2 t : Vec Ideal S1x128 .f32) y = (V m c main_v8 : FVec Ideal S1x128 .f32) y := by
  have e0 : win0_2.index t (0 : Fin 2) = 0 := (block_index t).2.2.2.2.1
  have e1 : win0_2.index t (1 : Fin 2) = 0 := (block_index t).2.2.2.2.2.1
  unfold iblk
  rw [View.read_apply]
  show V m c main_v8 _ = V m c main_v8 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- Window 3's tile is the whole operand: its block index is zero on both axes. -/
theorem tile3_whole (c : Dev nD) (t : Fin cfg0.N) (y : S128x64.Idx) :
    (iblk m c 3 t : Vec Ideal S128x64 .bf16) y = (V m c main_v5 : FVec Ideal S128x64 .bf16) y := by
  have e0 : win0_3.index t (0 : Fin 2) = 0 := (block_index t).2.2.2.2.2.2.1
  have e1 : win0_3.index t (1 : Fin 2) = 0 := (block_index t).2.2.2.2.2.2.2.1
  unfold iblk
  rw [View.read_apply]
  show V m c main_v5 _ = V m c main_v5 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 64 + 1 * (y 1).val = (y 1).val; rw [e1]; omega

/-- Window 4's tile is the whole operand: its block index is zero on both axes. -/
theorem tile4_whole (c : Dev nD) (t : Fin cfg0.N) (y : S1x64.Idx) :
    (iblk m c 4 t : Vec Ideal S1x64 .f32) y = (V m c main_v9 : FVec Ideal S1x64 .f32) y := by
  have e0 : win0_4.index t (0 : Fin 2) = 0 := (block_index t).2.2.2.2.2.2.2.2.1
  have e1 : win0_4.index t (1 : Fin 2) = 0 := (block_index t).2.2.2.2.2.2.2.2.2.1
  unfold iblk
  rw [View.read_apply]
  show V m c main_v9 _ = V m c main_v9 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- Window 5's tile is the whole operand: its block index is zero on both axes. -/
theorem tile5_whole (c : Dev nD) (t : Fin cfg0.N) (y : S1x64.Idx) :
    (iblk m c 5 t : Vec Ideal S1x64 .bf16) y = (V m c main_v7 : FVec Ideal S1x64 .bf16) y := by
  have e0 : win0_5.index t (0 : Fin 2) = 0 := (block_index t).2.2.2.2.2.2.2.2.2.2.1
  have e1 : win0_5.index t (1 : Fin 2) = 0 := (block_index t).2.2.2.2.2.2.2.2.2.2.2.1
  unfold iblk
  rw [View.read_apply]
  show V m c main_v7 _ = V m c main_v7 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- Window 6's tile is the whole operand: its block index is zero on both axes. -/
theorem tile6_whole (c : Dev nD) (t : Fin cfg0.N) (y : S1x1.Idx) :
    (iblk m c 6 t : Vec Ideal S1x1 .f32) y = (V m c main_v10 : FVec Ideal S1x1 .f32) y := by
  have e0 : win0_6.index t (0 : Fin 2) = 0 := (block_index t).2.2.2.2.2.2.2.2.2.2.2.2.1
  have e1 : win0_6.index t (1 : Fin 2) = 0 := (block_index t).2.2.2.2.2.2.2.2.2.2.2.2.2.1
  unfold iblk
  rw [View.read_apply]
  show V m c main_v10 _ = V m c main_v10 y
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 1 + 1 * (y 1).val = (y 1).val; rw [e1]; omega

/-! ## Each tile's entries as entries of the argument arrays -/

/-- The input tile at point `t`: rows `4096·t + p` of the input. -/
theorem x_tile (c : Dev nD) (t : Fin cfg0.N) (p : Fin 4096) (k : Fin 256) (r : Fin 262144) (hr : r.val = 4096 * t.val + p.val) :
    (iblk m c 0 t : Vec Ideal S4096x256 .f32) (ix2 (n0 := 4096) (n1 := 256) p k)
      = (m ((c : Thread nD τ).loc main_arg0) : FVec Ideal S262144x256 .f32) (ix2 (n0 := 262144) (n1 := 256) r k) := by
  have e0 : win0_0.index t (0 : Fin 2) = t.val := (block_index t).1
  have e1 : win0_0.index t (1 : Fin 2) = 0 := (block_index t).2.1
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 4096 + 1 * p.val = r.val; rw [e0, hr]; omega
  | ⟨1, _⟩ => show win0_0.index t (1 : Fin 2) * 256 + 1 * k.val = k.val; rw [e1]; omega

/-- The first weight's tile at `(k, j)` is the sign of the weight at `(j, k)`. -/
theorem w1_tile (c : Dev nD) (t : Fin cfg0.N) (k : Fin 256) (j : Fin 128) :
    (iblk m c 1 t : Vec Ideal S256x128 .bf16) (ix2 (n0 := 256) (n1 := 128) k j)
      = Ideal.sign ((m ((c : Thread nD τ).loc main_arg1) : FVec Ideal S128x256 .f32) (ix2 (n0 := 128) (n1 := 256) j k)) := by
  rw [tile1_whole, V_w1]
  show transpose S256x128 [1, 0] (Host.sign (F := Ideal) (s := S128x256) (φ := .f32) (m ((c : Thread nD τ).loc main_arg1)))
    transposes_S128x256_S256x128_1_0 (ix2 (n0 := 256) (n1 := 128) k j) = _
  rw [transpose_apply [1, 0] _ transposes_S128x256_S256x128_1_0 (ix2 (n0 := 256) (n1 := 128) k j) (ix2 (n0 := 128) (n1 := 256) j k)
    (fun b => match b with | ⟨0, _⟩ => rfl | ⟨1, _⟩ => rfl)]
  rfl

/-- The second weight's tile at `(k, j)` is the sign of the weight at `(j, k)`. -/
theorem w2_tile (c : Dev nD) (t : Fin cfg0.N) (k : Fin 128) (j : Fin 64) :
    (iblk m c 3 t : Vec Ideal S128x64 .bf16) (ix2 (n0 := 128) (n1 := 64) k j)
      = Ideal.sign ((m ((c : Thread nD τ).loc main_arg3) : FVec Ideal S64x128 .f32) (ix2 (n0 := 64) (n1 := 128) j k)) := by
  rw [tile3_whole, V_w2]
  show transpose S128x64 [1, 0] (Host.sign (F := Ideal) (s := S64x128) (φ := .f32) (m ((c : Thread nD τ).loc main_arg3)))
    transposes_S64x128_S128x64_1_0 (ix2 (n0 := 128) (n1 := 64) k j) = _
  rw [transpose_apply [1, 0] _ transposes_S64x128_S128x64_1_0 (ix2 (n0 := 128) (n1 := 64) k j) (ix2 (n0 := 64) (n1 := 128) j k)
    (fun b => match b with | ⟨0, _⟩ => rfl | ⟨1, _⟩ => rfl)]
  rfl

/-- The third weight's tile at `(0, k)` is the sign of the weight there. -/
theorem w3_tile (c : Dev nD) (t : Fin cfg0.N) (k : Fin 64) :
    (iblk m c 5 t : Vec Ideal S1x64 .bf16) (ix2 (n0 := 1) (n1 := 64) (0 : Fin 1) k)
      = Ideal.sign ((m ((c : Thread nD τ).loc main_arg5) : FVec Ideal S1x64 .f32) (ix2 (n0 := 1) (n1 := 64) (0 : Fin 1) k)) := by
  rw [tile5_whole, V_w3]
  rfl

/-- The first bias's tile at `(0, j)` is the bias at `j`: the reshape keeps the row-major position. -/
theorem b1_tile (c : Dev nD) (t : Fin cfg0.N) (j : Fin 128) :
    (iblk m c 2 t : Vec Ideal S1x128 .f32) (ix2 (n0 := 1) (n1 := 128) (0 : Fin 1) j)
      = (m ((c : Thread nD τ).loc main_arg2) : FVec Ideal S128 .f32) (ix1 (n := 128) j) := by
  rw [tile2_whole, V_b1]
  refine shapeCast_apply _ shapeCasts_S128_S1x128 _ _ ?_
  rw [Shape.rowMajor_val_one, Shape.rowMajor_val_two]
  show j.val = 0 * 128 + j.val
  omega

/-- The second bias's tile at `(0, j)` is the bias at `j`. -/
theorem b2_tile (c : Dev nD) (t : Fin cfg0.N) (j : Fin 64) :
    (iblk m c 4 t : Vec Ideal S1x64 .f32) (ix2 (n0 := 1) (n1 := 64) (0 : Fin 1) j)
      = (m ((c : Thread nD τ).loc main_arg4) : FVec Ideal S64 .f32) (ix1 (n := 64) j) := by
  rw [tile4_whole, V_b2]
  refine shapeCast_apply _ shapeCasts_S64_S1x64 _ _ ?_
  rw [Shape.rowMajor_val_one, Shape.rowMajor_val_two]
  show j.val = 0 * 64 + j.val
  omega

/-- The third bias's one entry. -/
theorem b3_tile (c : Dev nD) (t : Fin cfg0.N) :
    (iblk m c 6 t : Vec Ideal S1x1 .f32) (ix2 (n0 := 1) (n1 := 1) (0 : Fin 1) (0 : Fin 1))
      = (m ((c : Thread nD τ).loc main_arg6) : FVec Ideal S1 .f32) (ix1 (n := 1) (0 : Fin 1)) := by
  rw [tile6_whole, V_b3]
  refine shapeCast_apply _ shapeCasts_S1_S1x1 _ _ ?_
  rw [Shape.rowMajor_val_one, Shape.rowMajor_val_two]
  rfl

end Cert.KernelIdeal.Tiles

end
-- ==== Proof.Result.lean ====
/-
  The kernel's result array, as one function of the argument arrays.

  Grid point `t` writes back one `[1, 4096]` tile: columns `4096·t … 4096·t + 4095` of the `[1, 262144]` array the call
  produces, and entry `(0, p)` of that tile is the network's output at batch row `4096·t + p` (the body's arithmetic at
  an entry, over the tiles read as entries of the argument arrays). The 64 tiles cover the array — column `n` lies in
  the tile of point `n / 4096` — so after the call the array holds the network's output at every column. The host
  operation after the call transposes it to `[262144, 1]`: entry `(r, 0)` of the program's result is the output at row `r`.
-/
import proofs.«112013_j30580167147834_2_alg».proof.Proof.Body
import proofs.«112013_j30580167147834_2_alg».proof.Proof.Tiles

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.Mlp

variable (m : (ℓ : Loc nD τ sig) → Buf (Elt Ideal) ℓ) (ρ : Dev nD → PrngReg)

/-- The network's output at batch row `r`, of the argument arrays as launched on core `c`. -/
def outAt (c : Dev nD) (r : Fin 262144) : EReal :=
  prob (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r

/-- What the call leaves in its `[1, 262144]` array: column `n` holds the output at row `n`. -/
def rowOut (c : Dev nD) : Buf (Elt Ideal) ((c : Thread nD τ).loc main_v11) := fun i => outAt m c (i 1)

/-- The program's `[262144, 1]` result: entry `(r, 0)` holds the output at row `r`. -/
def colOut (c : Dev nD) : Buf (Elt Ideal) ((c : Thread nD τ).loc main_v12) := fun i => outAt m c (i 0)

theorem hz : (![0, 0] : Fin 2 → Nat) = fun _ => 0 := funext fun a => by fin_cases a <;> rfl

/-! ## What a point writes back -/

/-- Point `t` writes back tile `t` of `rowOut`. -/
theorem flushed_eq (c : Dev nD) (t : Fin cfg0.N) :
    (dats m 0 c).flushed 7 t = ((cfg0.win 7).blk t).view.read (Elt Ideal) (rowOut m c) := by
  show (cfg0.win 7).cut (grid0.coords t) ((dats m 0 c).after 7 t) = _
  rw [after0_7]
  unfold out0_7
  rw [View.canon_unit_zero hz]
  simp only [View.ld_unit_zero (S := S4096x256) hz, View.ld_unit_zero (S := S256x128) hz, View.ld_unit_zero (S := S1x128) hz,
    View.ld_unit_zero (S := S128x64) hz, View.ld_unit_zero (S := S1x64) hz, View.ld_unit_zero (S := S1x1) hz]
  funext y
  obtain ⟨q, p, rfl⟩ : ∃ (q : Fin 1) (p : Fin 4096), y = ix2 q p := ⟨y 0, y 1, eq_ix2 y⟩
  obtain rfl : q = 0 := Subsingleton.elim _ _
  have e1 : win0_7.index t (1 : Fin 2) = t.val := (Tiles.block_index t).2.2.2.2.2.2.2.2.2.2.2.2.2.2.2
  show k0_pay1 (k0_pay2 (iblk m c 0 t) (iblk m c 1 t) (iblk m c 2 t) (iblk m c 3 t) (iblk m c 4 t)) (iblk m c 5 t) (iblk m c 6 t)
      (ix2 (n0 := 1) (n1 := 4096) (0 : Fin 1) p)
    = outAt m c ((((cfg0.win 7).blk t).view.emb (ix2 (n0 := 1) (n1 := 4096) (0 : Fin 1) p)) 1)
  refine (Body.stored_apply (iblk m c 0 t) (iblk m c 1 t) (iblk m c 2 t) (iblk m c 3 t) (iblk m c 4 t) (iblk m c 5 t) (iblk m c 6 t) p).trans ?_
  have hr : ((((cfg0.win 7).blk t).view.emb (ix2 (n0 := 1) (n1 := 4096) (0 : Fin 1) p)) 1).val = 4096 * t.val + p.val := by
    show win0_7.index t (1 : Fin 2) * 4096 + 1 * p.val = _
    rw [e1]; omega
  unfold outAt
  exact tileOut_eq_prob _ _ _ _ _ _ _ _ _ _ _ _ _ _ _ p
    (fun k => Tiles.x_tile m c t p k _ hr) (fun k j => Tiles.w1_tile m c t k j) (fun j => Tiles.b1_tile m c t j)
    (fun k j => Tiles.w2_tile m c t k j) (fun j => Tiles.b2_tile m c t j) (fun k => Tiles.w3_tile m c t k) (Tiles.b3_tile m c t)

/-! ## The tiles cover the array -/

/-- A column is in point `t`'s tile iff it lies in `[4096·t, 4096·t + 4096)` (and the row, of extent one, in its range). -/
theorem mem_tile (t : Fin cfg0.N) (i : S1x262144.Idx) :
    i ∈ ((cfg0.win 7).blk t).view.set ↔ ∀ a : Fin 2, win0_7.index t a * S1x4096.size a ≤ (i a).val ∧ (i a).val < win0_7.index t a * S1x4096.size a + S1x4096.size a := by
  show i ∈ ((View.whole main_v11).slice (win0_7.rect t)).set ↔ _
  rw [View.set_slice_whole, Rect.mem_set_unit]
  exact Iff.rfl

/-- Every index of the array is in the tile of the point its column names. -/
theorem cover (i : S1x262144.Idx) : ∃ t : Fin cfg0.N, (cfg0.win 7).flush t = true ∧ i ∈ ((cfg0.win 7).blk t).view.set := by
  have hi0 : (i 0).val < 1 := (i 0).isLt
  have hi1 : (i 1).val < 262144 := (i 1).isLt
  have hN : grid0.N = 64 := N_0
  have ht : (i 1).val / 4096 < cfg0.N := by show _ < grid0.N; rw [hN]; omega
  refine ⟨⟨(i 1).val / 4096, ht⟩, flush0_7 _, ?_⟩
  rw [mem_tile]
  have e0 : win0_7.index ⟨(i 1).val / 4096, ht⟩ (0 : Fin 2) = 0 := (Tiles.block_index ⟨(i 1).val / 4096, ht⟩).2.2.2.2.2.2.2.2.2.2.2.2.2.2.1
  have e1 : win0_7.index ⟨(i 1).val / 4096, ht⟩ (1 : Fin 2) = (i 1).val / 4096 := (Tiles.block_index ⟨(i 1).val / 4096, ht⟩).2.2.2.2.2.2.2.2.2.2.2.2.2.2.2
  intro a
  match a with
  | ⟨0, _⟩ =>
    show win0_7.index ⟨(i 1).val / 4096, ht⟩ (0 : Fin 2) * 1 ≤ (i 0).val ∧ (i 0).val < win0_7.index ⟨(i 1).val / 4096, ht⟩ (0 : Fin 2) * 1 + 1
    rw [e0]; omega
  | ⟨1, _⟩ =>
    show win0_7.index ⟨(i 1).val / 4096, ht⟩ (1 : Fin 2) * 4096 ≤ (i 1).val ∧ (i 1).val < win0_7.index ⟨(i 1).val / 4096, ht⟩ (1 : Fin 2) * 4096 + 4096
    rw [e1]; omega

/-- After the call its array holds `rowOut`. -/
theorem final (c : Dev nD) : (dats m 0 c).arrAt 7 cfg0.N = rowOut m c :=
  (dats m 0 c).arrAt_eq_of_cover 7 (rowOut m c) (fun t _ => flushed_eq m c t) (cover)

/-! ## The transpose after the call, and the run -/

/-- The host operation after the call leaves the program's result at `colOut`. -/
theorem tail_eq (c : Dev nD) : Pipeline.afterTail₀ cfgs (dats m) 0 (V0 m) [hostOps1] c main_v12 = colOut m c := by
  unfold Pipeline.afterTail₀
  show StableHlo.after hostOps1 _ (Proc.devRef .tc main_v12) = _
  after_results
  rw [show Pipeline.withArrays (cfgs 0).spec c (V0 m c) (fun w => (dats m 0 c).arrAt w (cfgs 0).N) (Proc.devRef .tc main_v11) = rowOut m c from
    (Pipeline.withArrays_arr spec0 launch0.win.arr_inj c _ _ 7).trans (final m c)]
  funext i
  rw [transpose_apply [1, 0] _ transposes_S1x262144_S262144x1_1_0 i (ix2 (n0 := 1) (n1 := 262144) (i 1) (i 0))
    (fun b => match b with | ⟨0, _⟩ => rfl | ⟨1, _⟩ => rfl)]
  rfl

/-- THE RUN, READ: every weakly fair execution of the program ends with its result at `colOut` and its arguments as
    launched (the generated frame run, its post read at the result and at each argument). -/
theorem run : θ_run defs (onTc (τ := τ) (main (F := Ideal))) ⟨m, fun _ => 0, ρ⟩ fun r => ∀ c : Dev nD,
      r.2.mem ((c : Thread nD τ).loc main_v12) = colOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h c).2 main_v12 (Pipeline.mem_restRefs_of main_v12 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.lean ====
/-
  The kernel and its reference compute one function over the extended reals.

  Both programs are a three-layer network whose activations and weights pass through the three-way sign before each
  product, ending in the logistic function (Proof/Spec.lean). The reference runs it over the whole batch with host
  operations. The kernel signs and transposes the weights once on the host, then for each tile of 4096 batch rows runs
  the three products on the tile — the last one transposed, so that a tile's outputs form a row — and writes the row into
  a `[1, 262144]` array, which the host transposes back. Entry by entry the two are the same sums of the same products
  in the same order, but for the last layer, whose two factors are exchanged; products of extended reals commute, so no
  finiteness of the inputs is used. The kernel writes its sign as "one carrying the operand's sign bit, where the operand
  is not zero, else the operand": the idealized kernel reads the sign bit as `x < 0`, which is the ledger's three entries.

  The kernel's frames and the reference's run are the generated modules'. Module by module: the network and the law
  joining the tile form to the batch form (Spec), the reference read entry by entry (RefNetwork), the body's arithmetic
  at an entry (Body), the windows' tiles as entries of the arguments (Tiles), and the result array from the tiles with
  the transpose after the call (Result).
-/
import proofs.«112013_j30580167147834_2_alg».proof.Defs
import proofs.«112013_j30580167147834_2_alg».proof.Proof.Gen.Kernel
import proofs.«112013_j30580167147834_2_alg».proof.Proof.Gen.Kernel.Skeleton
import proofs.«112013_j30580167147834_2_alg».proof.Proof.Gen.Kernel.Launch
import proofs.«112013_j30580167147834_2_alg».proof.Proof.Gen.Kernel.Points
import proofs.«112013_j30580167147834_2_alg».proof.Proof.Gen.Kernel.Frame
import proofs.«112013_j30580167147834_2_alg».proof.Proof.Gen.KernelIdeal
import proofs.«112013_j30580167147834_2_alg».proof.Proof.Gen.KernelIdeal.Skeleton
import proofs.«112013_j30580167147834_2_alg».proof.Proof.Gen.KernelIdeal.Launch
import proofs.«112013_j30580167147834_2_alg».proof.Proof.Gen.KernelIdeal.Points
import proofs.«112013_j30580167147834_2_alg».proof.Proof.Gen.KernelIdeal.Frame
import proofs.«112013_j30580167147834_2_alg».proof.Proof.Gen.ReferenceIdeal
import proofs.«112013_j30580167147834_2_alg».proof.Proof.Gen.Pre_finite_inputs
import proofs.«112013_j30580167147834_2_alg».proof.Proof.Gen.ReferenceIdeal.Run
import proofs.«112013_j30580167147834_2_alg».proof.Proof.Gen.ReferenceIdeal.Read
import proofs.«112013_j30580167147834_2_alg».proof.Proof.RefNetwork
import proofs.«112013_j30580167147834_2_alg».proof.Proof.Result
import Idealize.ShloMosaic.Adequacy
import Idealize.ShloMosaic.Init

noncomputable section

namespace Cert.Proof

open Idealize.ShloMosaic Idealize.SL.Sem

/-- The word-level kernel runs and keeps its arguments: the generated frame. -/
theorem frame_kernel : @Cert.frame_Kernel Cert.Kernel.Gen.facts Cert.Pre_finite_inputs.Gen.facts :=
  fun m ρ _ => Cert.Kernel.Gen.frame m ρ

/-- The idealized kernel runs and keeps its arguments: the generated frame. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its generated run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The ledger's three entries: at each of the three shapes the kernel takes a sign at, "one with the operand's sign bit"
    reads as `-1` where the operand is below zero and `1` elsewhere. -/
theorem preserves : Cert.preserves_Kernel_KernelIdeal :=
  ⟨IdealRules.sign_bit.statement _ _, IdealRules.sign_bit.statement _ _, IdealRules.sign_bit.statement _ _⟩

/-- From memories agreeing on the arguments both programs end with the network's output at every batch row: the
    kernel's result array holds it (Result), the reference's term is it entry by entry (RefNetwork). -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Result.colOut m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2.1,
    (hagree c).2.2.2.2.1, (hagree c).2.2.2.2.2.1, (hagree c).2.2.2.2.2.2]
  funext i
  exact Cert.ReferenceIdeal.RefNetwork.result_apply _ _ _ _ _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
